-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x42 : Shape := ⟨3, ![256, 128, 42]⟩
abbrev S_ : Shape := ⟨0, ![]⟩

class Facts : Prop where
  bcast_S_S256x128x42 : S_.BroadcastsInDim S256x128x42 (![] : Fin 0 → Fin S256x128x42.rank)
  reducesTo_S256x128x42_S_d0_1_2 : S256x128x42.ReducesTo [0, 1, 2] S_
  h_S_ : 0 < S_.numel

variable [Facts]

def fn {F : FTy → Type} [FloatOps F] (main_arg0 : FVec F S256x128x42 .f32) (main_arg1 : FVec F S256x128x42 .f32) : IVec S_ 1 :=
  let main_v0 : FVec F S256x128x42 .f32 := Host.absf main_arg0
  let main_cst : FVec F S_ .f32 := constant S_ .f32 0x7F800000#32
  let main_v1 : FVec F S256x128x42 .f32 := broadcastInDim S256x128x42 ![] bcast_S_S256x128x42 main_cst
  let main_v2 : IVec S256x128x42 1 := cmpf .olt main_v0 main_v1
  let main_c : IVec S_ 1 := constantI S_ 1 1#1
  let main_v3 : IVec S_ 1 := (fun x v => Host.reduce IntOp.andi x v reducesTo_S256x128x42_S_d0_1_2 h_S_) main_v2 main_c
  let main_v4 : FVec F S256x128x42 .f32 := Host.absf main_arg1
  let main_cst_0 : FVec F S_ .f32 := constant S_ .f32 0x7F800000#32
  let main_v5 : FVec F S256x128x42 .f32 := broadcastInDim S256x128x42 ![] bcast_S_S256x128x42 main_cst_0
  let main_v6 : IVec S256x128x42 1 := cmpf .olt main_v4 main_v5
  let main_c_1 : IVec S_ 1 := constantI S_ 1 1#1
  let main_v7 : IVec S_ 1 := (fun x v => Host.reduce IntOp.andi x v reducesTo_S256x128x42_S_d0_1_2 h_S_) main_v6 main_c_1
  let main_v8 : IVec S_ 1 := andi main_v3 main_v7
  main_v8
-- ==== Kernel.lean ====
abbrev S256x128x42 : Shape := ⟨3, ![256, 128, 42]⟩
abbrev S256x1 : Shape := ⟨2, ![256, 1]⟩
abbrev S64x128x42 : Shape := ⟨3, ![64, 128, 42]⟩
abbrev S64x1 : Shape := ⟨2, ![64, 1]⟩
abbrev S64x128x1 : Shape := ⟨3, ![64, 128, 1]⟩
abbrev S64x128 : Shape := ⟨2, ![64, 128]⟩
abbrev S64 : Shape := ⟨1, ![64]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S256x128x42, .f32⟩
  | .hbm, ⟨1, _⟩ => ⟨S256x128x42, .f32⟩
  | .hbm, ⟨2, _⟩ => ⟨S256x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S64x128x42, .f32⟩
  | .local _ .vmem, ⟨1, _⟩ => ⟨S64x128x42, .f32⟩
  | .local _ .vmem, ⟨2, _⟩ => ⟨S64x128x42, .f32⟩
  | .local _ .vmem, ⟨3, _⟩ => ⟨S64x128x42, .f32⟩
  | .local _ .vmem, ⟨4, _⟩ => ⟨S64x1, .f32⟩
  | .local _ .vmem, ⟨5, _⟩ => ⟨S64x1, .f32⟩
  | _, _ => ⟨S256x128x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x42 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x128x42_S64x128x42_0_0_0 : ∀ a, (![0, 0, 0] : Fin 3 → Nat) a + S64x128x42.size a ≤ S64x128x42.size a
  h_S64x128x42 : 0 < S64x128x42.numel
  slices_S64x128x42_o0_0_40_S64x128x1 : S64x128x42.Slices ![0, 0, 40] S64x128x1
  shapeCasts_S64x128x1_S64x128 : S64x128x1.ShapeCasts S64x128
  reduces_S64x128_S64 : S64x128.Reduces [1] S64
  reduces_S64x128x42_S64x128 : S64x128x42.Reduces [2] S64x128
  shapeCasts_S64_S64x1 : S64.ShapeCasts S64x1
  inb_S64x1_S64x1_0_0 : ∀ a, (![0, 0] : Fin 2 → Nat) a + S64x1.size a ≤ S64x1.size a
  h_S64x1 : 0 < S64x1.numel
  reducesTo_S256x1_S_d0_1 : S256x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x42.size a ≤ S256x128x42.size a
  hwx0_0 : ∀ i : grid0.Coords, EltTy.bits .f32 = 32 ∨ (Rect.block (s := S256x128x42) S64x128x42.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x42.size a ≤ S256x128x42.size a
  hwx0_1 : ∀ i : grid0.Coords, EltTy.bits .f32 = 32 ∨ (Rect.block (s := S256x128x42) S64x128x42.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S256x1.size a
  hwx0_2 : ∀ i : grid0.Coords, EltTy.bits .f32 = 32 ∨ (Rect.block (s := S256x1) S64x1.size (cc0_transform_2 i) (hinb0_2 i)).WholeWords (EltTy.packing .f32)

variable [Facts₀]

abbrev win0_0 : Pipeline.Window sig grid0 :=
  Pipeline.Window.ofSpec (Memref.whole main_arg0) S64x128x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x42.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x128x42 : Shape := ⟨3, ![256, 128, 42]⟩
abbrev S256x128x1 : Shape := ⟨3, ![256, 128, 1]⟩
abbrev S256x128 : Shape := ⟨2, ![256, 128]⟩
abbrev S_ : Shape := ⟨0, ![]⟩
abbrev S256 : Shape := ⟨1, ![256]⟩

abbrev nBuf : Space → Nat
  | .hbm => 25
  | .vmem => 0
  | .smem => 0
  | _ => 0

abbrev bufTy : (tb : Table) → Fin (tcTables nBuf tb) → BufTy
  | .hbm, ⟨0, _⟩ => ⟨S256x128x42, .f32⟩
  | .hbm, ⟨1, _⟩ => ⟨S256x128x42, .f32⟩
  | .hbm, ⟨2, _⟩ => ⟨S256x128x1, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256, .f32⟩
  | .hbm, ⟨9, _⟩ => ⟨S256x128x42, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S256x128x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  slices_S256x128x42_S256x128x1_0_0_40 : S256x128x42.Slices ![0, 0, 40] S256x128x1
  shapeCasts_S256x128x1_S256x128 : S256x128x1.ShapeCasts S256x128
  bcast_S_S256x128 : S_.BroadcastsInDim S256x128 (![] : Fin 0 → Fin S256x128.rank)
  reducesTo_S256x128_S256_d1 : S256x128.ReducesTo [1] S256
  h_S_ : 0 < S_.numel
  reducesTo_S256x128x42_S256x128_d2 : S256x128x42.ReducesTo [2] S256x128
  bcast_S_S256 : S_.BroadcastsInDim S256 (![] : Fin 0 → Fin S256.rank)
  reducesTo_S256_S_d0 : S256.ReducesTo [0] S_

variable [Facts₀]

class Facts : Prop extends Facts₀ where

variable [Facts]
-- ==== Proof.LibIndexSums.lean ====
/-
  Two re-indexings of a finite sum over the indices of a small shape.

  An index of a one-axis shape `[n]` is its one coordinate, and an index of a shape `[n, 1]` is its first
  coordinate (the second can only be `0`).  So a sum over all indices of either shape, in any commutative monoid,
  is the sum over `Fin n` of the summand at the index built from the coordinate.  These are the rank-one and the
  unit-column companions of the library's double-sum reading of a rank-two shape.
-/
import Idealize.ShloMosaic.Lib.ValueIdx

namespace Cert.LibIndexSums

open Idealize.ShloMosaic Idealize.ShloMosaic.ValueIdx

/-- A sum over the indices of a one-axis shape `[n]` is the sum over that axis's coordinates. -/
theorem sum_idx1 {M : Type*} [AddCommMonoid M] {n : Nat} (f : (⟨1, ![n]⟩ : Shape).Idx → M) :
    ∑ j, f j = ∑ b : Fin n, f (ix1 b) :=
  (Equiv.sum_comp (⟨ix1, fun j => j 0, fun _ => rfl, fun j => (eq_ix1 j).symm⟩ :
    Fin n ≃ (⟨1, ![n]⟩ : Shape).Idx) f).symm

/-- A sum over the indices of a column shape `[n, 1]` is the sum over the first axis's coordinates. -/
theorem sum_idx2_unit {M : Type*} [AddCommMonoid M] {n : Nat} (f : (⟨2, ![n, 1]⟩ : Shape).Idx → M) :
    ∑ j, f j = ∑ b : Fin n, f (ix2 b 0) := by
  rw [sum_idx2]
  exact Finset.sum_congr rfl fun b _ => Fin.sum_univ_one _

end Cert.LibIndexSums
-- ==== Proof.MaskedLoss.lean ====
/-
  The quantity both programs compute, as one function of the two argument arrays on the extended reals.

  For a batch row with one-hot targets `t s a` and predicted probabilities `p s a` (position `s` of 128,
  class `a` of 42):
    * a position is KEPT with weight `1 − t s 40` (class 40 marks a position to ignore),
    * the probability given to the true class at a position is `∑ a, t s a · p s a`,
    * the row's loss is `(∑ s, −log(prob s) · keep s) / (128 − ∑ s, keep s)`,
  and the result is the mean over the 256 rows, `(∑ b, rowLoss b) / 256`.

  The float literals 1, 128 and 256 are kept as the words the programs print: the same word stands on both sides of
  every equation below, so none of them is ever evaluated.  Sums are sums of extended reals, which commute and
  associate at the infinities too, so the two programs' different groupings of a sum are one sum.
-/
import Idealize.ShloMosaic.PureOps.Ideal
import Idealize.ShloMosaic.PureOps.Ideal.Laws
import Idealize.ShloMosaic.Lib.ValueIdx
import proofs.«167020_j64527588655435_2_alg».proof.Proof.LibIndexSums

noncomputable section

namespace Cert.MaskedLoss

open Idealize.ShloMosaic Idealize.ShloMosaic.ValueIdx

/-- The word of the f32 literal `1.0`. -/
abbrev oneF : EReal := Ideal.ofBits .f32 0x3F800000#32
/-- The word of the f32 literal `128.0`, the number of positions in a row. -/
abbrev seqLenF : EReal := Ideal.ofBits .f32 0x43000000#32
/-- The word of the f32 literal `256.0`, the number of rows. -/
abbrev batchF : EReal := Ideal.ofBits .f32 0x43800000#32

/-- The weight of position `s`: one minus the target's entry for the ignored class 40. -/
def keep (t : Fin 128 → Fin 42 → EReal) (s : Fin 128) : EReal := oneF - t s 40

/-- The probability the prediction gives to the target's class at position `s`. -/
def prob (t p : Fin 128 → Fin 42 → EReal) (s : Fin 128) : EReal := ∑ a : Fin 42, t s a * p s a

/-- One row's loss: the kept positions' negated log-probabilities, summed, over `128 −` the kept weight. -/
def rowLoss (t p : Fin 128 → Fin 42 → EReal) : EReal :=
  Ideal.div (∑ s : Fin 128, -(Ideal.log (prob t p s)) * keep t s) (seqLenF - ∑ s : Fin 128, keep t s)

/-- Row `b` of a `[B, 128, 42]` array. -/
def row {B : Nat} (x : (⟨3, ![B, 128, 42]⟩ : Shape).Idx → EReal) (b : Fin B) : Fin 128 → Fin 42 → EReal :=
  fun s a => x (ix3 b s a)

/-- The mean of the 256 rows' losses. -/
def meanLoss (t p : (⟨3, ![256, 128, 42]⟩ : Shape).Idx → EReal) : EReal :=
  Ideal.div (∑ b : Fin 256, rowLoss (row t b) (row p b)) batchF

end Cert.MaskedLoss

end
-- ==== Proof.BlockRowLoss.lean ====
/-
  What the kernel body stores, read at one row of its block.

  The body loads a block of 64 rows of targets `x0` and of predictions `x1`, each `[64, 128, 42]`, and stores a
  `[64, 1]` column.  Read at row `r`, that column holds the row loss of row `r` of the two blocks:
    * the slice at class 40 with its unit axis dropped, subtracted from 1, is the keep weight of each position;
    * the lane sum over the 42 classes of `x0 · x1` is the true class's probability;
    * the body negates the logarithm as `0 − log`, which on the extended reals is `−log` (`0 + y = y` for every `y`,
      the infinities included);
    * the two sums over the 128 positions and the quotient are the row loss's numerator and denominator.
-/
import proofs.«167020_j64527588655435_2_alg».proof.Proof.Gen.KernelIdeal.Skeleton
import proofs.«167020_j64527588655435_2_alg».proof.Proof.MaskedLoss
import Idealize.ShloMosaic.Lib.Pipeline.Value
import Idealize.ShloMosaic.Lib.ValueIdx
import Idealize.ShloMosaic.PureOps.Ideal.Laws

noncomputable section

namespace Cert.KernelIdeal.BlockRowLoss

open Idealize.ShloMosaic Idealize.ShloMosaic.ValueIdx Cert.KernelIdeal Cert.KernelIdeal.Gen Cert.MaskedLoss

/-- A sum over the positions of a `[64, 128]` vector, read at row `r`. -/
theorem positionSum_apply (v : FVec Ideal S64x128 .f32) (h : S64x128.Reduces [1] S64) (hφ : FKind.Formats .f32)
    (hacc : (0x00000000#32 : BitVec 32) = FKind.add.neutral .f32 hφ) (r : Fin 64) :
    multiReduction .add [1] S64 v 0x00000000#32 h hφ hacc (ix1 r) = ∑ s : Fin 128, v (ix2 r s) :=
  (Ideal.multiReduction_add_single v _ h hφ hacc (ix1 r)).trans
    (Finset.sum_congr rfl fun s _ => congrArg v (funext fun a => Fin.ext (by match a with | ⟨0, _⟩ => rfl | ⟨1, _⟩ => rfl)))

/-- A sum over the classes of a `[64, 128, 42]` vector, read at row `r` and position `s`. -/
theorem classSum_apply (v : FVec Ideal S64x128x42 .f32) (h : S64x128x42.Reduces [2] S64x128) (hφ : FKind.Formats .f32)
    (hacc : (0x00000000#32 : BitVec 32) = FKind.add.neutral .f32 hφ) (r : Fin 64) (s : Fin 128) :
    multiReduction .add [2] S64x128 v 0x00000000#32 h hφ hacc (ix2 r s) = ∑ a : Fin 42, v (ix3 r s a) :=
  (Ideal.multiReduction_add_single v _ h hφ hacc (ix2 r s)).trans
    (Finset.sum_congr rfl fun a _ => congrArg v (funext fun d => Fin.ext (by match d with | ⟨0, _⟩ => rfl | ⟨1, _⟩ => rfl | ⟨2, _⟩ => rfl)))

/-- The slice at class 40, its unit axis dropped, read at row `r` and position `s`. -/
theorem ignoredClass_apply (x0 : Vec Ideal S64x128x42 .f32) (r : Fin 64) (s : Fin 128) :
    shapeCast S64x128 (extractStridedSlice S64x128x1 ![0, 0, 40] x0 slices_S64x128x42_o0_0_40_S64x128x1) shapeCasts_S64x128x1_S64x128 (ix2 r s)
      = x0 (ix3 r s 40) := by
  refine (shapeCast_apply _ shapeCasts_S64x128x1_S64x128 (ix2 r s) (ix3 r s 0) ?_).trans ?_
  · rw [Shape.rowMajor_val_three, Shape.rowMajor_val_two]
    show (r.val * 128 + s.val) * 1 + 0 = r.val * 128 + s.val
    omega
  · exact extractStridedSlice_apply ![0, 0, 40] x0 slices_S64x128x42_o0_0_40_S64x128x1 (ix3 r s 0) (ix3 r s 40) (fun a => match a with
      | ⟨0, _⟩ => by show r.val = 0 + r.val; omega
      | ⟨1, _⟩ => by show s.val = 0 + s.val; omega
      | ⟨2, _⟩ => by show 40 = 40 + 0; rfl)

/-- The keep weight of a block's position: one minus the slice at class 40. -/
theorem keep_apply (x0 : Vec Ideal S64x128x42 .f32) (r : Fin 64) (s : Fin 128) :
    subf (broadcast S64x128 (Scalar.ofBits (F := Ideal) .f32 0x3F800000#32))
        (shapeCast S64x128 (extractStridedSlice S64x128x1 ![0, 0, 40] x0 slices_S64x128x42_o0_0_40_S64x128x1) shapeCasts_S64x128x1_S64x128) (ix2 r s)
      = keep (row x0 r) s :=
  congrArg (oneF - ·) (ignoredClass_apply x0 r s)

/-- The negated logarithm of the true class's probability at a block's position; the body writes it `0 − log`. -/
theorem negLog_apply (x0 x1 : Vec Ideal S64x128x42 .f32) (h : S64x128x42.Reduces [2] S64x128) (hφ : FKind.Formats .f32)
    (hacc : (0x00000000#32 : BitVec 32) = FKind.add.neutral .f32 hφ) (r : Fin 64) (s : Fin 128) :
    subf (broadcast S64x128 (Scalar.ofBits (F := Ideal) .f32 0x00000000#32))
        (log (multiReduction .add [2] S64x128 (mulf x0 x1) 0x00000000#32 h hφ hacc)) (ix2 r s)
      = -(Ideal.log (prob (row x0 r) (row x1 r) s)) := by
  refine (congrArg (fun u => Ideal.ofBits .f32 0x00000000#32 - Ideal.log u) (classSum_apply (mulf x0 x1) h hφ hacc r s)).trans ?_
  rw [Ideal.ofBits_zero_f32, zero_sub]
  rfl

/-- THE PAYLOAD AT A ROW: the stored column, read at row `r`, is the row loss of row `r` of the two loaded blocks. -/
theorem payload_apply (x0 x1 : Vec Ideal S64x128x42 .f32) (r : Fin 64) (z : Fin 1) :
    k0_pay1 (F := Ideal) x0 x1 (ix2 r z) = rowLoss (row x0 r) (row x1 r) := by
  unfold k0_pay1
  dsimp only
  refine (shapeCast_apply _ shapeCasts_S64_S64x1 (ix2 r z) (ix1 r) ?_).trans ?_
  · rw [Shape.rowMajor_val_one, Shape.rowMajor_val_two]
    show r.val = r.val * 1 + z.val
    have := z.isLt
    omega
  · unfold rowLoss
    refine congrArg₂ Ideal.div ?_ ?_
    · refine (positionSum_apply _ _ _ _ r).trans (Finset.sum_congr rfl fun s _ => ?_)
      exact congrArg₂ (· * ·) (negLog_apply x0 x1 _ _ _ r s) (keep_apply x0 r s)
    · refine congrArg (seqLenF - ·) ?_
      exact (positionSum_apply _ _ _ _ r).trans (Finset.sum_congr rfl fun s _ => keep_apply x0 r s)

end Cert.KernelIdeal.BlockRowLoss

end
-- ==== Proof.RowLossArray.lean ====
/-
  The column the region leaves: entry `b` is the row loss of row `b` of the two argument arrays.

  The grid has four points.  Point `t` sees rows `64 t … 64 t + 63` of both `[256, 128, 42]` arguments (all positions,
  all classes) and writes rows `64 t … 64 t + 63` of the `[256, 1]` result.  Since a row's loss depends on that row of
  the arguments alone, what a point writes back is a block of ONE whole-array function, the column of row losses;
  and the four blocks of 64 rows cover the 256 rows (row `i` lies in block `i / 64`), so the whole array ends at
  that column.
-/
import proofs.«167020_j64527588655435_2_alg».proof.Proof.Gen.KernelIdeal.Frame
import proofs.«167020_j64527588655435_2_alg».proof.Proof.BlockRowLoss
import Idealize.ShloMosaic.Lib.Pipeline.Value

set_option maxRecDepth 16384

noncomputable section

namespace Cert.KernelIdeal.RowLossArray

open Idealize.ShloMosaic Idealize.ShloMosaic.TcCoe Idealize.SL.Sem Idealize.ShloMosaic.ValueIdx
open Cert.KernelIdeal Cert.KernelIdeal.Gen Cert.KernelIdeal.BlockRowLoss Cert.MaskedLoss
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The column of row losses of two `[256, 128, 42]` arrays. -/
def rowLosses (t p : S256x128x42.Idx → EReal) : S256x1.Idx → EReal :=
  fun j => rowLoss (row t ⟨(j 0).val, idx2_lt0 j⟩) (row p ⟨(j 0).val, idx2_lt0 j⟩)

/-- The printed index maps, decided over the four points: both inputs' blocks move with the output's along the rows
    and sit at block 0 on the other axes; the output's block index is the point, at most 3. -/
theorem idx_facts : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = win0_2.index t (0 : Fin 2) ∧ win0_1.index t (1 : Fin 3) = 0 ∧ win0_1.index t (2 : Fin 3) = 0
    ∧ win0_2.index t (1 : Fin 2) = 0 ∧ win0_2.index t (0 : Fin 2) ≤ 3 :=
  (by decide +kernel : ∀ t : Fin grid0.N, _)

/-- Every block of 64 rows is some point's. -/
theorem idx_onto : ∀ q : Fin 4, ∃ t : Fin cfg0.N, win0_2.index t = ![q.val, 0] :=
  (by decide +kernel : ∀ q : Fin 4, ∃ t : Fin grid0.N, win0_2.index t = ![q.val, 0])

/-- WHAT POINT `t` WRITES BACK is block `t` of the column of row losses of the arguments as the region finds them. -/
theorem flushed_eq (c : Dev nD) (t : Fin cfg0.N) :
    (dats m 0 c).flushed 2 t = ((cfg0.win 2).blk t).view.read (Elt Ideal) (rowLosses (V m c main_arg0) (V m c main_arg1)) := by
  show (cfg0.win 2).cut (grid0.coords t) ((dats m 0 c).after 2 t) = _
  rw [after0_2]
  unfold out0_2
  rw [View.canon_unit_zero zero2]
  simp only [View.ld_unit_zero (S := S64x128x42) zero3]
  obtain ⟨e0, e1, e2, e3, e4, e5, e6, e7⟩ := idx_facts t
  funext j
  obtain ⟨r, z, rfl⟩ : ∃ (r : Fin 64) (z : Fin 1), j = ix2 r z := ⟨j 0, j 1, eq_ix2 j⟩
  refine (payload_apply (iblk m c 0 t) (iblk m c 1 t) r z).trans ?_
  have h0 : ∀ (s : Fin 128) (a : Fin 42), ((cfg0.win 0).blk t).view.emb (ix3 r s a)
      = ix3 ⟨(((cfg0.win 2).blk t).view.emb (ix2 r z) 0).val, idx2_lt0 _⟩ s a := by
    intro s a
    funext d; apply Fin.ext
    match d with
    | ⟨0, _⟩ => show win0_0.index t (0 : Fin 3) * 64 + 1 * r.val = win0_2.index t (0 : Fin 2) * 64 + 1 * r.val; omega
    | ⟨1, _⟩ => show win0_0.index t (1 : Fin 3) * 128 + 1 * s.val = s.val; omega
    | ⟨2, _⟩ => show win0_0.index t (2 : Fin 3) * 42 + 1 * a.val = a.val; omega
  have h1 : ∀ (s : Fin 128) (a : Fin 42), ((cfg0.win 1).blk t).view.emb (ix3 r s a)
      = ix3 ⟨(((cfg0.win 2).blk t).view.emb (ix2 r z) 0).val, idx2_lt0 _⟩ s a := by
    intro s a
    funext d; apply Fin.ext
    match d with
    | ⟨0, _⟩ => show win0_1.index t (0 : Fin 3) * 64 + 1 * r.val = win0_2.index t (0 : Fin 2) * 64 + 1 * r.val; omega
    | ⟨1, _⟩ => show win0_1.index t (1 : Fin 3) * 128 + 1 * s.val = s.val; omega
    | ⟨2, _⟩ => show win0_1.index t (2 : Fin 3) * 42 + 1 * a.val = a.val; omega
  exact congrArg₂ rowLoss (funext fun s => funext fun a => congrArg (V m c main_arg0) (h0 s a))
    (funext fun s => funext fun a => congrArg (V m c main_arg1) (h1 s a))

/-- A row of the result is in point `t`'s block iff each coordinate is in the block's range on its axis. -/
theorem mem_blk (t : Fin cfg0.N) (i : S256x1.Idx) :
    i ∈ ((cfg0.win 2).blk t).view.set ↔ ∀ a : Fin 2, win0_2.index t a * S64x1.size a ≤ (i a).val ∧ (i a).val < win0_2.index t a * S64x1.size a + S64x1.size a := by
  show i ∈ ((View.whole main_v0).slice (win0_2.rect t)).set ↔ _
  rw [View.set_slice_whole, Rect.mem_set_unit]
  exact Iff.rfl

/-- Every row of the result is written by the point of its block of 64. -/
theorem cover (i : S256x1.Idx) : ∃ t : Fin cfg0.N, (cfg0.win 2).flush t = true ∧ i ∈ ((cfg0.win 2).blk t).view.set := by
  have hi0 : (i 0).val < 256 := (i 0).isLt
  have hi1 : (i 1).val < 1 := (i 1).isLt
  obtain ⟨t, ht⟩ := idx_onto ⟨(i 0).val / 64, by omega⟩
  have q0 : win0_2.index t (0 : Fin 2) = (i 0).val / 64 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 1 ≤ (i 1).val ∧ (i 1).val < win0_2.index t (1 : Fin 2) * 1 + 1; omega

/-- THE RESULT ARRAY after the region is the column of row losses of the argument arrays. -/
theorem final (c : Dev nD) : (dats m 0 c).arrAt 2 cfg0.N = rowLosses (V m c main_arg0) (V m c main_arg1) :=
  (dats m 0 c).arrAt_eq_of_cover 2 _ (fun t _ => flushed_eq m c t) cover

end Cert.KernelIdeal.RowLossArray

end
-- ==== Proof.KernelMeanLoss.lean ====
/-
  The kernel program's result is the mean loss.

  After the region has left the column of the 256 row losses, two host lines remain: the sum of the whole
  `[256, 1]` column from the literal zero, and the quotient by the literal 256.  The literal zero is the extended
  real `0` and drops out of the sum; a sum over the indices of a `[256, 1]` array is the sum over its 256 rows; so
  the result is `(∑ b, rowLoss b) / 256`, the mean loss.  The arguments are read through unchanged.
-/
import proofs.«167020_j64527588655435_2_alg».proof.Proof.RowLossArray
import Idealize.ShloMosaic.Lib.StableHlo.Run
import Idealize.ShloMosaic.Lib.Pipeline.FrameSuffix

set_option maxRecDepth 16384

noncomputable section

namespace Cert.KernelIdeal.MeanLoss

open Idealize.ShloMosaic Idealize.ShloMosaic.TcCoe Idealize.SL.Sem Idealize.ShloMosaic.ValueIdx Idealize.ShloMosaic.StableHlo
open Cert.KernelIdeal Cert.KernelIdeal.Gen Cert.KernelIdeal.RowLossArray Cert.MaskedLoss Cert.LibIndexSums

variable (m : (ℓ : Loc nD τ sig) → Buf (Elt Ideal) ℓ) (ρ : Dev nD → PrngReg)

/-- The two host lines after the region, as one function of the column they read. -/
def mean (col : S256x1.Idx → EReal) : S_.Idx → EReal :=
  Host.divf (F := Ideal) (Host.reduceAdd (F := Ideal) col (constant (F := Ideal) S_ .f32 0x00000000#32) reducesTo_S256x1_S_d0_1 h_S_)
    (constant (F := Ideal) S_ .f32 0x43800000#32)

/-- Of the column of row losses they make the mean loss. -/
theorem mean_rowLosses (t p : S256x128x42.Idx → EReal) : mean (rowLosses t p) = fun _ => meanLoss t p := by
  funext i
  unfold mean meanLoss
  refine congrArg (Ideal.div · batchF) ?_
  simp only [Host.reduceAdd, Ideal.hostReduceAdd_def]
  rw [Ideal.hostReduceAdd_total reducesTo_S256x1_S_d0_1 (fun b => b.elim0) (rowLosses t p) _ i, sum_idx2_unit]
  show Ideal.ofBits .f32 0x00000000#32 + _ = _
  rw [Ideal.ofBits_zero_f32, zero_add]
  rfl

/-- The result buffer after the lines that follow the region. -/
theorem result_eq (c : Dev nD) :
    Pipeline.afterTail₀ cfgs (dats m) 0 (V0 m) [hostOps1] c main_v2
      = fun _ => meanLoss (m ((c : Thread nD τ).loc main_arg0)) (m ((c : Thread nD τ).loc main_arg1)) := by
  unfold Pipeline.afterTail₀
  show StableHlo.after hostOps1 _ (Proc.devRef .tc main_v2) = _
  after_results
  exact (congrArg mean ((Pipeline.withArrays_arr spec0 launch0.win.arr_inj c _ _ 2).trans (final m c))).trans
    (mean_rowLosses _ _)

/-- THE KERNEL PROGRAM'S RUN: every weakly fair execution ends with the result at the mean loss of the argument
    arrays, and the arguments unchanged. -/
theorem run : θ_run defs (onTc (τ := τ) (main (F := Ideal))) ⟨m, fun _ => 0, ρ⟩ fun r => ∀ c : Dev nD,
      r.2.mem ((c.tc : Thread nD τ).loc main_v2)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.MeanLoss

end
-- ==== Proof.ReferenceIsMeanLoss.lean ====
/-
  The reference program's result is the mean loss.

  The reference computes, stage by stage over whole `[256, 128]` and `[256]` arrays, exactly the quantities of the
  specification: the keep weight `1 − t[…, 40]`, the true class's probability as a sum over the 42 classes, its
  logarithm negated, the two sums over the 128 positions, the quotient by `128 − kept weight`, and the mean of the
  256 rows.  Each of its sums starts from the literal zero, which is the extended real `0` and drops out
  (`0 + y = y`).  Read at an index, each stage is the stage before at an index the shapes determine; those
  index equations are stated once, coordinate by coordinate.
-/
import proofs.«167020_j64527588655435_2_alg».proof.Proof.Gen.ReferenceIdeal.Read
import proofs.«167020_j64527588655435_2_alg».proof.Proof.MaskedLoss

noncomputable section

namespace Cert.ReferenceIdeal.MeanLoss

open Idealize.ShloMosaic Idealize.ShloMosaic.ValueIdx Cert.ReferenceIdeal Cert.ReferenceIdeal.Read Cert.MaskedLoss Cert.LibIndexSums

/-- Position `s` of row `b`, traced back through the reshape and the slice, is the array's entry at class 40. -/
theorem idx_ignored (b : Fin 256) (s : Fin 128) : idx_main_v0 (idx_main_v1 (ix2 b s)) = ix3 b s 40 :=
  funext fun a => Fin.ext (by
    match a with
    | ⟨0, _⟩ => show (b.val * 128 + s.val) / 128 = b.val; have := s.isLt; omega
    | ⟨1, _⟩ => show (b.val * 128 + s.val) / 1 % 128 = s.val; have := s.isLt; omega
    | ⟨2, _⟩ => rfl)

theorem idx_class (b : Fin 256) (s : Fin 128) (k : Fin 42) : idx_main_v6 (ix2 b s) k = ix3 b s k :=
  funext fun a => Fin.ext (by match a with | ⟨0, _⟩ => rfl | ⟨1, _⟩ => rfl | ⟨2, _⟩ => rfl)

theorem idx_keptSum (b : Fin 256) (k : Fin 128) : idx_main_v4 (ix1 b) k = ix2 b k :=
  funext fun a => Fin.ext (by match a with | ⟨0, _⟩ => rfl | ⟨1, _⟩ => rfl)

theorem idx_lossSum (b : Fin 256) (k : Fin 128) : idx_main_v10 (ix1 b) k = ix2 b k :=
  funext fun a => Fin.ext (by match a with | ⟨0, _⟩ => rfl | ⟨1, _⟩ => rfl)

/-- The reference's mask stage at a position is the keep weight. -/
theorem keep_eq (x0 : S256x128x42.Idx → EReal) (b : Fin 256) (s : Fin 128) :
    val_main_v3 (F := Ideal) x0 (ix2 b s) = keep (row x0 b) s := by
  rw [val_main_v3_apply, val_main_v2_apply, val_main_cst_apply, val_main_v1_apply, val_main_v0_apply, idx_ignored]
  rfl

/-- The reference's negated logarithm at a position. -/
theorem negLog_eq (x0 x1 : S256x128x42.Idx → EReal) (b : Fin 256) (s : Fin 128) :
    val_main_v8 (F := Ideal) x0 x1 (ix2 b s) = -(Ideal.log (prob (row x0 b) (row x1 b) s)) := by
  rw [val_main_v8_apply, val_main_v7_apply, val_main_v6_apply, val_main_cst_1_apply]
  simp only [idx_class, val_main_v5_apply, Ideal.hostNegf_def, Ideal.negf_def, Ideal.hostUnary_log_def, Ideal.ofBits_def,
    Ideal.ofBits_zero_f32, zero_add, Ideal.mulf_def]
  rfl

/-- The reference's per-row quotient is the row loss. -/
theorem rowLoss_eq (x0 x1 : S256x128x42.Idx → EReal) (b : Fin 256) :
    val_main_v13 (F := Ideal) x0 x1 (ix1 b) = rowLoss (row x0 b) (row x1 b) := by
  rw [val_main_v13_apply, val_main_v10_apply, val_main_v12_apply, val_main_v11_apply, val_main_cst_3_apply, val_main_v4_apply,
    val_main_cst_2_apply, val_main_cst_0_apply]
  simp only [idx_keptSum, idx_lossSum, val_main_v9_apply, keep_eq, negLog_eq, Ideal.hostDivf_def, Ideal.subf_def, Ideal.mulf_def,
    Ideal.ofBits_def, Ideal.ofBits_zero_f32, zero_add]
  rfl

/-- THE REFERENCE'S RESULT, at its one index, is the mean loss of the two argument arrays. -/
theorem result_eq (x0 x1 : S256x128x42.Idx → EReal) :
    val_main_v15 (F := Ideal) x0 x1 = fun _ => meanLoss x0 x1 := by
  funext i
  rw [val_main_v15_apply, val_main_v14_apply, val_main_cst_5_apply, val_main_cst_4_apply, sum_idx1]
  simp only [rowLoss_eq, Ideal.hostDivf_def, Ideal.ofBits_def, Ideal.ofBits_zero_f32, zero_add]
  rfl

end Cert.ReferenceIdeal.MeanLoss

end
-- ==== Proof.lean ====
/-
  A masked cross-entropy loss computed block by block equals its whole-array reference, on the extended reals.

  Both programs take one-hot targets `t` and predicted probabilities `p`, each `[256, 128, 42]` (row, position, class),
  and return one number, the mean over the 256 rows of
      rowLoss = (∑ s, −log(∑ a, t s a · p s a) · (1 − t s 40)) / (128 − ∑ s, (1 − t s 40)).
  The kernel computes the 256 row losses in four blocks of 64 rows, one per grid point, into a `[256, 1]` column, and two
  host lines then sum the column and divide by 256; the reference computes the same stages over whole arrays.

  The two differ in three spellings only, none of which changes the value on the extended reals:
    * the kernel negates the logarithm as `0 − log`, the reference as `−log`: `0 − y = −y` for every `y`, `±∞` included;
    * each of the reference's sums starts from the literal zero, which is `0` and drops out;
    * the kernel sums the rows as a sum over a `[256, 1]` array, the reference over a `[256]` array: one sum of 256 terms.
  Every float literal (1, 128, 256) is the same word on both sides, and a row's loss depends on that row alone, which
  is why the blocks are restrictions of one whole-array function.  No step cancels, distributes or moves a factor
  across a sum, so nothing needs the inputs to be finite: the equality holds at every extended-real input.

  The modules: MaskedLoss states the function; ReferenceIsMeanLoss reads the reference's stages at an index;
  BlockRowLoss reads the kernel body's stored column at a row; RowLossArray pieces the four blocks into the column;
  KernelMeanLoss reads the two host lines after the region; LibIndexSums re-indexes a sum over the indices of a
  one-axis or a one-column shape as a sum over its rows.  Below, the claims.
-/
import proofs.«167020_j64527588655435_2_alg».proof.Defs
import proofs.«167020_j64527588655435_2_alg».proof.Proof.Gen.Kernel
import proofs.«167020_j64527588655435_2_alg».proof.Proof.Gen.Kernel.Skeleton
import proofs.«167020_j64527588655435_2_alg».proof.Proof.Gen.Kernel.Launch
import proofs.«167020_j64527588655435_2_alg».proof.Proof.Gen.Kernel.Points
import proofs.«167020_j64527588655435_2_alg».proof.Proof.Gen.Kernel.Frame
import proofs.«167020_j64527588655435_2_alg».proof.Proof.Gen.KernelIdeal
import proofs.«167020_j64527588655435_2_alg».proof.Proof.Gen.KernelIdeal.Skeleton
import proofs.«167020_j64527588655435_2_alg».proof.Proof.Gen.KernelIdeal.Launch
import proofs.«167020_j64527588655435_2_alg».proof.Proof.Gen.KernelIdeal.Points
import proofs.«167020_j64527588655435_2_alg».proof.Proof.Gen.KernelIdeal.Frame
import proofs.«167020_j64527588655435_2_alg».proof.Proof.Gen.ReferenceIdeal
import proofs.«167020_j64527588655435_2_alg».proof.Proof.Gen.ReferenceIdeal.Run
import proofs.«167020_j64527588655435_2_alg».proof.Proof.Gen.ReferenceIdeal.Read
import proofs.«167020_j64527588655435_2_alg».proof.Proof.Gen.Pre_finite_inputs
import proofs.«167020_j64527588655435_2_alg».proof.Proof.KernelMeanLoss
import proofs.«167020_j64527588655435_2_alg».proof.Proof.ReferenceIsMeanLoss
import Idealize.ShloMosaic.Adequacy
import Idealize.ShloMosaic.Init

noncomputable section

namespace Cert.Proof

open Idealize.ShloMosaic Idealize.SL.Sem

/-- The word-level kernel program runs and leaves its arguments as they were (the generated frame). -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- From memories that agree on the two arguments, both programs end with their result at the mean loss of those
    arguments: the kernel program by its run, the reference by its run read stage by stage. -/
theorem algebraic : Cert.algebraic_KernelIdeal_ReferenceIdeal := by
  intro m ρ m' ρ' _ hagree
  refine ⟨fun c => fun _ => Cert.MaskedLoss.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.MeanLoss.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.MeanLoss.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
